-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel

variable [Facts]

def fn {F : FTy → Type} [FloatOps F] (main_arg0 : FVec F S8192x1 .f32) (main_arg1 : IVec S8192x1 32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  main_v3
-- ==== Kernel.lean ====
abbrev S8192x1 : Shape := ⟨2, ![8192, 1]⟩
abbrev S1x8192 : Shape := ⟨2, ![1, 8192]⟩
abbrev S64x128 : Shape := ⟨2, ![64, 128]⟩
abbrev S1024x1 : Shape := ⟨2, ![1024, 1]⟩
abbrev S1x1024 : Shape := ⟨2, ![1, 1024]⟩
abbrev S8x128 : Shape := ⟨2, ![8, 128]⟩
abbrev S1024x1024 : Shape := ⟨2, ![1024, 1024]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 7
  | .vmem => 11
  | .smem => 0
  | _ => 0

abbrev bufTy : (tb : Table) → Fin (tcTables nBuf tb) → BufTy
  | .hbm, ⟨0, _⟩ => ⟨S8192x1, .f32⟩
  | .hbm, ⟨1, _⟩ => ⟨S8192x1, .i32⟩
  | .hbm, ⟨2, _⟩ => ⟨S1x8192, .f32⟩
  | .hbm, ⟨3, _⟩ => ⟨S1x8192, .i32⟩
  | .hbm, ⟨4, _⟩ => ⟨S64x128, .f32⟩
  | .hbm, ⟨5, _⟩ => ⟨S_, .f32⟩
  | .hbm, ⟨6, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S8x128, .f32⟩
  | .local _ .vmem, ⟨9, _⟩ => ⟨S8x128, .f32⟩
  | .local _ .vmem, ⟨10, _⟩ => ⟨S8x128, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192x1_S1x8192 : S8192x1.ShapeCasts S1x8192
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x1_S1024x1_0_0 : ∀ a, (![0, 0] : Fin 2 → Nat) a + S1024x1.size a ≤ S1024x1.size a
  h_S1024x1 : 0 < S1024x1.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  reducesTo_S64x128_S_d0_1 : S64x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S64x128.size a
  hwx0_4 : ∀ i : grid0.Coords, EltTy.bits .f32 = 32 ∨ (Rect.block (s := S64x128) S8x128.size (cc0_transform_4 i) (hinb0_4 i)).WholeWords (EltTy.packing .f32)

variable [Facts₀]

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x1, .i32⟩
  | .hbm, ⟨2, _⟩ => ⟨S8192, .f32⟩
  | .hbm, ⟨3, _⟩ => ⟨S8192x1, .f32⟩
  | .hbm, ⟨4, _⟩ => ⟨S1x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192, .i32⟩
  | .hbm, ⟨10, _⟩ => ⟨S8192x1, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.LibScaledCopies.lean ====
/-
  Copies of a scaled number, on the extended reals.

  A kernel that spreads one partial sum X evenly over the N entries of an accumulator block stores X * c in every entry,
  with c = 1/N, and relies on a later sum over the block to recombine them.  On the extended reals multiplication does
  not distribute over addition in general, but it does over non-negative summands, whatever the other factor is — so
  n copies of X * c are X * (n c) for every extended real X, infinite or not, as soon as c >= 0; and when n c = 1 the
  copies add up to X again.  No finiteness of X is needed.
-/
import Mathlib

noncomputable section

open scoped BigOperators

namespace Cert.LibScaledCopies

/-- `n` copies of `X * c` are `X * (n c)` when `c` is non-negative: multiplication by `X` distributes over a sum of
    non-negative terms whatever `X` is. -/
theorem nsmul_mul_of_nonneg (X c : EReal) (hc : 0 ≤ c) (n : ℕ) : n • (X * c) = X * (n • c) := by
  induction n with
  | zero => simp
  | succ n ih => rw [succ_nsmul, succ_nsmul, ih, EReal.left_distrib_of_nonneg (nsmul_nonneg hc n) hc]

/-- A finite family of copies of `X * c`, as many as make `c` add up to one, adds up to `X`. -/
theorem sum_const_mul_of_nonneg {ι : Type*} [Fintype ι] (X c : EReal) (hc : 0 ≤ c) (h1 : Fintype.card ι • c = 1) :
    ∑ _k : ι, X * c = X := by
  rw [Finset.sum_const, Finset.card_univ, nsmul_mul_of_nonneg X c hc, h1, mul_one]

/-- The same over a block indexed by a row and a lane: `a * b` copies, with `(a * b) c = 1`. -/
theorem sum_sum_const_mul_of_nonneg (a b : ℕ) (X c : EReal) (hc : 0 ≤ c) (h1 : (a * b) • c = 1) :
    ∑ _r : Fin a, ∑ _l : Fin b, X * c = X := by
  simp only [Finset.sum_const, Finset.card_univ, Fintype.card_fin]
  rw [← mul_nsmul', nsmul_mul_of_nonneg X c hc, h1, mul_one]

end Cert.LibScaledCopies

end
-- ==== Proof.PairSum.lean ====
/-
  The algebra behind the equivalence, on the extended reals and free of either program.

  The loss is the sum over all ordered pairs (u, v) of rows of a signed square: +(p u - p v)^2 when the two rows carry
  the same label, -(p u - p v)^2 otherwise.  One program masks the diagonal out explicitly and multiplies the square
  by a sign +1 / -1; the other selects between the square and its negative and relies on the diagonal square being
  zero.  The two pair terms agree (`term_eq`): off the diagonal because 1 * s = s and -1 * s = -s = 0 - s hold for
  every extended real s, on the diagonal because p u - p u = 0 once p u is finite.

  The tiled program cuts the 8192 x 8192 pairs into 8 x 8 tiles of 1024 x 1024, sums each tile, and for each row
  block i keeps a running total over the tiles j = 0..7 of (tile sum) * c, with c = 1/1024, restarted at j = 0
  (`acc`, `acc_closed`).  The total is written to all 8 x 128 = 1024 entries of block i of a [64, 128] array, which is
  then summed.  Since c >= 0, 1024 copies of X * c add up to X * (1024 c) = X for every extended real X, infinite or
  not (`sum_copies`, over LibScaledCopies.lean); sums commute and re-associate freely on the extended reals; and the rows
  0..8191 are the rows of the 8 blocks of 1024 (`sum_rows`).  So the array's total is the sum of the pair terms over
  all pairs (`spread_total`).
-/
import Mathlib
import proofs.«112891_j78451872629246_2_alg».proof.Proof.LibBlockSum
import proofs.«112891_j78451872629246_2_alg».proof.Proof.LibScaledCopies

noncomputable section

open scoped BigOperators

namespace Cert.PairSum

open Idealize.ShloMosaic.ValueIdx

/-! ## One pair -/

/-- The two spellings of a pair's term agree: `s` says the labels are equal, `d` that the pair is on the diagonal,
    where the labels are equal, the two values are one value, and that value is finite. -/
theorem term_eq (p q z one negone : EReal) (hz : z = 0) (h1 : one = 1) (hn : negone = -1)
    (s d : Prop) [Decidable s] [Decidable d] (hd : d → s ∧ p = q ∧ p ≠ ⊤ ∧ p ≠ ⊥) :
    (if s then (p - q) * (p - q) else z - (p - q) * (p - q))
      = (if ¬d then (if s then one else negone) * ((p - q) * (p - q)) else z) := by
  subst hz h1 hn
  by_cases hdd : d
  · obtain ⟨hs, rfl, ht, hb⟩ := hd hdd
    rw [if_pos hs, if_neg (not_not.mpr hdd), EReal.sub_self ht hb, mul_zero]
  · rw [if_pos hdd]
    by_cases hs : s
    · rw [if_pos hs, if_pos hs, one_mul]
    · rw [if_neg hs, if_neg hs, EReal.neg_mul, one_mul, sub_eq_add_neg, zero_add]

/-! ## Copies of a scaled total -/

/-- The 8 x 128 entries of a block all hold `X * c`; with `1024 c = 1` they add up to `X`: multiplication by `X`
    distributes over non-negative summands whatever `X` is (LibScaledCopies.lean). -/
theorem sum_copies (X c : EReal) (hc : 0 ≤ c) (h1 : (1024 : ℕ) • c = 1) :
    ∑ _r : Fin 8, ∑ _l : Fin 128, X * c = X :=
  Cert.LibScaledCopies.sum_sum_const_mul_of_nonneg 8 128 X c hc h1

/-! ## The running total over a row block's tiles -/

/-- The running total after grid point `n` (point `8 i + j` is tile `j` of row block `i`): restarted from `z` at the
    first tile of each row block, then increased by the point's tile sum times `c`. -/
def acc (T : ℕ → EReal) (z c : EReal) : ℕ → EReal
  | 0 => z + T 0 * c
  | n + 1 => (if (n + 1) % 8 = 0 then z else acc T z c n) + T (n + 1) * c

theorem acc_zero (T : ℕ → EReal) (z c : EReal) : acc T z c 0 = z + T 0 * c := rfl

theorem acc_succ (T : ℕ → EReal) (z c : EReal) (n : ℕ) :
    acc T z c (n + 1) = (if (n + 1) % 8 = 0 then z else acc T z c n) + T (n + 1) * c := rfl

/-- At a first tile the total restarts. -/
theorem acc_restart (T : ℕ → EReal) (z c : EReal) (n : ℕ) (h : n % 8 = 0) : acc T z c n = z + T n * c := by
  cases n with
  | zero => rfl
  | succ n => rw [acc_succ, if_pos h]

/-- Elsewhere it continues from the point before. -/
theorem acc_step (T : ℕ → EReal) (z c : EReal) (n : ℕ) (h : ¬n % 8 = 0) :
    acc T z c n = acc T z c (n - 1) + T n * c := by
  cases n with
  | zero => exact absurd (Nat.zero_mod 8) h
  | succ n => rw [acc_succ, if_neg h]; rfl

/-- After tile `j` of row block `i` the total is the sum of the scaled tile sums `0..j` of that block. -/
theorem acc_closed (T : ℕ → EReal) (c : EReal) (i j : ℕ) (hj : j < 8) :
    acc T 0 c (8 * i + j) = ∑ k ∈ Finset.range (j + 1), T (8 * i + k) * c := by
  induction j with
  | zero =>
    rw [acc_restart T 0 c (8 * i + 0) (by omega), zero_add]
    simp
  | succ j ih =>
    rw [acc_step T 0 c (8 * i + (j + 1)) (by omega), show 8 * i + (j + 1) - 1 = 8 * i + j from by omega,
      ih (by omega), Finset.sum_range_succ _ (j + 1)]

/-- After the last tile: the sum over the block's eight tiles. -/
theorem acc_last (T : ℕ → EReal) (c : EReal) (i : ℕ) :
    acc T 0 c (8 * i + 7) = ∑ k : Fin 8, T (8 * i + k.val) * c := by
  rw [acc_closed T c i 7 (by omega), Finset.sum_range]

/-! ## Rows by blocks -/

/-- Row `a` of row block `i`, of 8 blocks of 1024 rows. -/
abbrev row (i : Fin 8) (a : Fin 1024) : Fin 8192 := blockRow (T := 8) (B := 1024) i a

theorem row_val (i : Fin 8) (a : Fin 1024) : (row i a).val = i.val * 1024 + a.val := rfl

/-- A sum over the 8192 rows, block by block. -/
theorem sum_rows {M : Type*} [AddCommMonoid M] (f : Fin 8192 → M) :
    ∑ u, f u = ∑ i : Fin 8, ∑ a : Fin 1024, f (row i a) :=
  sum_blockRows 8 1024 f

/-- Row `r` of block `i`, of the 8 blocks of 8 rows of the [64, 128] array of totals. -/
abbrev orow (i : Fin 8) (r : Fin 8) : Fin 64 := blockRow (T := 8) (B := 8) i r

theorem orow_val (i : Fin 8) (r : Fin 8) : (orow i r).val = i.val * 8 + r.val := rfl

theorem sum_orows {M : Type*} [AddCommMonoid M] (f : Fin 64 → M) :
    ∑ u, f u = ∑ i : Fin 8, ∑ r : Fin 8, f (orow i r) :=
  sum_blockRows 8 8 f

/-- All pairs of rows, tile by tile. -/
theorem sum_tiles (f : Fin 8192 → Fin 8192 → EReal) :
    ∑ i : Fin 8, ∑ j : Fin 8, ∑ a : Fin 1024, ∑ b : Fin 1024, f (row i a) (row j b) = ∑ u, ∑ v, f u v := by
  rw [sum_rows (M := EReal) (fun u => ∑ v, f u v)]
  refine Finset.sum_congr rfl fun i _ => ?_
  rw [Finset.sum_comm]
  refine Finset.sum_congr rfl fun a _ => ?_
  rw [sum_rows (M := EReal) (fun v => f (row i a) v)]

/-! ## The total of the array of spread totals -/

/-- The [64, 128] array whose row block `i` holds, in every entry, the running total after the last tile of row block
    `i`, sums to the sum over all pairs, when the tile sum at point `8 i + j` is the sum of `f` over tile `(i, j)`. -/
theorem spread_total (T : ℕ → EReal) (c : EReal) (hc : 0 ≤ c) (h1 : (1024 : ℕ) • c = 1)
    (f : Fin 8192 → Fin 8192 → EReal)
    (hT : ∀ i j : Fin 8, T (8 * i.val + j.val) = ∑ a : Fin 1024, ∑ b : Fin 1024, f (row i a) (row j b)) :
    ∑ r : Fin 64, ∑ _l : Fin 128, acc T 0 c (8 * (r.val / 8) + 7) = ∑ u, ∑ v, f u v := by
  rw [sum_orows (M := EReal) (fun r => ∑ _l : Fin 128, acc T 0 c (8 * (r.val / 8) + 7)), ← sum_tiles f]
  refine Finset.sum_congr rfl fun i _ => ?_
  have hdiv : ∀ r : Fin 8, (orow i r).val / 8 = i.val := fun r => by
    rw [orow_val]; have := r.isLt; omega
  simp only [hdiv, acc_last]
  -- every entry of block i holds the sum over j of T (8 i + j) * c
  have hcomm : ∑ _r : Fin 8, ∑ _l : Fin 128, ∑ k : Fin 8, T (8 * i.val + k.val) * c
      = ∑ k : Fin 8, ∑ _r : Fin 8, ∑ _l : Fin 128, T (8 * i.val + k.val) * c :=
    (Finset.sum_congr rfl fun _ _ => Finset.sum_comm).trans Finset.sum_comm
  rw [hcomm]
  refine Finset.sum_congr rfl fun j _ => ?_
  rw [sum_copies _ c hc h1, hT i j]

end Cert.PairSum

end
-- ==== Proof.Blocks.lean ====
/-
  The four input blocks at a grid point, as rows of the two argument arrays.

  Grid point t is tile (t / 8, t % 8).  The column blocks (windows 0 and 2) are rows 1024 (t / 8) + a of the prediction
  and label arrays; the row blocks (windows 1 and 3) are columns 1024 (t % 8) + b of the same arrays laid out as one row
  [1, 8192] by the two reshapes that precede the kernel, and entry (0, v) of such a reshaped array is entry (v, 0) of
  the [8192, 1] array it was made from.
-/
import proofs.«112891_j78451872629246_2_alg».proof.Proof.Gen.KernelIdeal.Frame
import proofs.«112891_j78451872629246_2_alg».proof.Proof.PairSum
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx Cert.PairSum

variable {F : FTy → Type} [FloatOps F]
variable (m : (ℓ : Loc nD τ sig) → Buf (Elt F) ℓ)

/-- The tile's row-block number and column-block number at grid point `t`. -/
def pi (t : Fin cfg0.N) : Fin 8 := ⟨t.val / 8, by have := t.isLt; have hN : cfg0.N = 64 := N_0; omega⟩
def pj (t : Fin cfg0.N) : Fin 8 := ⟨t.val % 8, Nat.mod_lt _ (by decide)⟩

theorem pi_val (t : Fin cfg0.N) : (pi t).val = t.val / 8 := rfl
theorem pj_val (t : Fin cfg0.N) : (pj t).val = t.val % 8 := rfl

/-- The printed index maps, decided over the grid: the column blocks and the output block move with t / 8, the row
    blocks with t % 8. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-- Entry (0, v) of a [8192, 1] array laid out as [1, 8192] is its entry (v, 0). -/
theorem rowcast_apply {α : Type} (x : S8192x1.Idx → α) (v : Fin 8192) :
    shapeCast S1x8192 x shapeCasts_S8192x1_S1x8192 (ix2 (0 : Fin 1) v) = x (ix2 v (0 : Fin 1)) :=
  shapeCast_apply x shapeCasts_S8192x1_S1x8192 _ _ (by
    rw [Shape.rowMajor_val_two, Shape.rowMajor_val_two]
    show v.val * 1 + 0 = 0 * 8192 + v.val
    omega)

/-- The first reshape: the kernel finds the predictions laid out as one row. -/
theorem V_main_v0 (c : Dev nD) :
    (V m c main_v0 : S1x8192.Idx → Elt F .f32)
      = shapeCast S1x8192 (m ((c : Thread nD τ).loc main_arg0)) shapeCasts_S8192x1_S1x8192 := by
  show StableHlo.after hostOps0 (fun b => m (c, b)) (Proc.devRef .tc main_v0) = _
  after_results
  rfl

/-- The second reshape: the labels laid out as one row. -/
theorem V_main_v1 (c : Dev nD) :
    (V m c main_v1 : S1x8192.Idx → Elt F .i32)
      = shapeCast S1x8192 (m ((c : Thread nD τ).loc main_arg1)) shapeCasts_S8192x1_S1x8192 := by
  show StableHlo.after hostOps0 (fun b => m (c, b)) (Proc.devRef .tc main_v1) = _
  after_results
  rfl

/-- Window 0 at point t, row a: the prediction of row 1024 (t / 8) + a. -/
theorem col_pred (c : Dev nD) (t : Fin cfg0.N) (a : Fin 1024) :
    (iblk m c 0 t : Vec F S1024x1 .f32) (ix2 a (0 : Fin 1))
      = m ((c : Thread nD τ).loc main_arg0) (ix2 (row (pi t) a) (0 : Fin 1)) := by
  obtain ⟨e00, e01, -⟩ := idx_facts t
  unfold iblk
  rw [View.read_apply]
  have hemb : ((cfg0.win 0).blk t).view.emb (ix2 a (0 : Fin 1)) = ix2 (row (pi t) a) (0 : Fin 1) :=
    funext fun d => Fin.ext (by
      match d with
      | ⟨0, _⟩ => show win0_0.index t (0 : Fin 2) * 1024 + 1 * a.val = t.val / 8 * 1024 + a.val; rw [e00]; omega
      | ⟨1, _⟩ => show win0_0.index t (1 : Fin 2) * 1 + 1 * 0 = 0; rw [e01])
  rw [hemb]
  exact congrFun (V_main_arg0 m c) _

/-- Window 2 at point t, row a: the label of row 1024 (t / 8) + a. -/
theorem col_label (c : Dev nD) (t : Fin cfg0.N) (a : Fin 1024) :
    (iblk m c 2 t : Vec F S1024x1 .i32) (ix2 a (0 : Fin 1))
      = m ((c : Thread nD τ).loc main_arg1) (ix2 (row (pi t) a) (0 : Fin 1)) := by
  obtain ⟨-, -, -, -, e20, e21, -⟩ := idx_facts t
  unfold iblk
  rw [View.read_apply]
  have hemb : ((cfg0.win 2).blk t).view.emb (ix2 a (0 : Fin 1)) = ix2 (row (pi t) a) (0 : Fin 1) :=
    funext fun d => Fin.ext (by
      match d with
      | ⟨0, _⟩ => show win0_2.index t (0 : Fin 2) * 1024 + 1 * a.val = t.val / 8 * 1024 + a.val; rw [e20]; omega
      | ⟨1, _⟩ => show win0_2.index t (1 : Fin 2) * 1 + 1 * 0 = 0; rw [e21])
  rw [hemb]
  exact congrFun (V_main_arg1 m c) _

/-- Window 1 at point t, column b: the prediction of row 1024 (t % 8) + b. -/
theorem row_pred (c : Dev nD) (t : Fin cfg0.N) (b : Fin 1024) :
    (iblk m c 1 t : Vec F S1x1024 .f32) (ix2 (0 : Fin 1) b)
      = m ((c : Thread nD τ).loc main_arg0) (ix2 (row (pj t) b) (0 : Fin 1)) := by
  obtain ⟨-, -, e10, e11, -⟩ := idx_facts t
  unfold iblk
  rw [View.read_apply]
  have hemb : ((cfg0.win 1).blk t).view.emb (ix2 (0 : Fin 1) b) = ix2 (0 : Fin 1) (row (pj t) b) :=
    funext fun d => Fin.ext (by
      match d with
      | ⟨0, _⟩ => show win0_1.index t (0 : Fin 2) * 1 + 1 * 0 = 0; rw [e10]
      | ⟨1, _⟩ => show win0_1.index t (1 : Fin 2) * 1024 + 1 * b.val = t.val % 8 * 1024 + b.val; rw [e11]; omega)
  rw [hemb]
  exact (congrFun (V_main_v0 m c) _).trans (rowcast_apply _ _)

/-- Window 3 at point t, column b: the label of row 1024 (t % 8) + b. -/
theorem row_label (c : Dev nD) (t : Fin cfg0.N) (b : Fin 1024) :
    (iblk m c 3 t : Vec F S1x1024 .i32) (ix2 (0 : Fin 1) b)
      = m ((c : Thread nD τ).loc main_arg1) (ix2 (row (pj t) b) (0 : Fin 1)) := by
  obtain ⟨-, -, -, -, -, -, e30, e31, -⟩ := idx_facts t
  unfold iblk
  rw [View.read_apply]
  have hemb : ((cfg0.win 3).blk t).view.emb (ix2 (0 : Fin 1) b) = ix2 (0 : Fin 1) (row (pj t) b) :=
    funext fun d => Fin.ext (by
      match d with
      | ⟨0, _⟩ => show win0_3.index t (0 : Fin 2) * 1 + 1 * 0 = 0; rw [e30]
      | ⟨1, _⟩ => show win0_3.index t (1 : Fin 2) * 1024 + 1 * b.val = t.val % 8 * 1024 + b.val; rw [e31]; omega)
  rw [hemb]
  exact (congrFun (V_main_v1 m c) _).trans (rowcast_apply _ _)

end Cert.KernelIdeal.Blocks

end
-- ==== Proof.Pieces.lean ====
/-
  What each of the body's three control cases leaves behind, as values.

  The body keeps a running block in a scratch buffer.  At the first tile of a row block (case A) it stores the zero
  block, reads it back and stores  zero block + contribution;  at the other tiles (cases B and C) it reads what the
  previous point left and stores  previous + contribution;  at the last tile (case C) it also copies the scratch, just
  stored, into the output block.  The "contribution" and the addition are the one payload `k0_pay2`, whose last
  argument is the block the scratch held.  Each case's stores cover the whole [8, 128] buffer, so what the buffer holds
  afterwards is the last store's payload.
-/
import proofs.«112891_j78451872629246_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Case A (first tile of a row block): the scratch ends at the payload over the zero block. -/
theorem scratch_A (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i) (x0 : Vec F S1024x1 .f32) (x1 : Vec F S1x1024 .f32) (x2 : Vec F S1024x1 .i32) (x3 : Vec F S1x1024 .i32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread,
    View.ld_unit_zero (S := S1024x1) hz, View.ld_unit_zero (S := S1x1024) hz]

/-- Case B (a middle tile): the scratch ends at the payload over what it held. -/
theorem scratch_B (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i) (x0 : Vec F S1024x1 .f32) (x1 : Vec F S1x1024 .f32) (x2 : Vec F S1024x1 .i32) (x3 : Vec F S1x1024 .i32) (xs0 : Vec F S8x128 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread,
    harg7.read_unread, View.ld_unit_zero (S := S1024x1) hz, View.ld_unit_zero (S := S1x1024) hz,
    View.ld_unit_zero (S := S8x128) hz]

/-- Case C (last tile): the scratch ends at the payload over what it held, -/
theorem scratch_C (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i) (x0 : Vec F S1024x1 .f32) (x1 : Vec F S1x1024 .f32) (x2 : Vec F S1024x1 .i32) (x3 : Vec F S1x1024 .i32) (xs0 : Vec F S8x128 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread,
    harg7.read_unread, View.ld_unit_zero (S := S1024x1) hz, View.ld_unit_zero (S := S1x1024) hz,
    View.ld_unit_zero (S := S8x128) hz]

/-- and the output block is the scratch read back: the same value. -/
theorem output_C (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i) (x0 : Vec F S1024x1 .f32) (x1 : Vec F S1x1024 .f32) (x2 : Vec F S1024x1 .i32) (x3 : Vec F S1x1024 .i32) (xs0 : Vec F S8x128 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S8x128) _ hz]
  simp only [View.readAt_eq_ld, harg2.read_unread, harg3.read_unread, harg4.read_unread, harg5.read_unread,
    harg7.read_unread, View.ld_unit_zero (S := S1024x1) hz, View.ld_unit_zero (S := S1x1024) hz,
    View.ld_unit_zero (S := S8x128) hz]

end Cert.KernelIdeal.Pieces

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.Tile.lean ====
/-
  What one grid point adds to the running total, read at an index.

  At a grid point the body holds a column block `v3` of 1024 predictions and a row block `v4` of 1024 predictions, with
  their labels `v10`, `v11`.  It forms, for every pair (a, b) of the tile, the square (v3 a - v4 b)^2, keeps it where the
  labels agree and replaces it by 0 - (v3 a - v4 b)^2 where they differ (`signedSq`, `signedSq_apply`), sums each row
  of the tile, then sums the column of row sums (`tileTotal_apply`: together the double sum over the tile), spreads
  the one number over an [8, 128] block, multiplies by 2^-10 and adds the block the scratch held (`pay2_apply`).
  So every entry of the stored block is  old entry + (tile's double sum) * 2^-10.
-/
import proofs.«112891_j78451872629246_2_alg».proof.Proof.Gen.KernelIdeal.Skeleton
import proofs.«112891_j78451872629246_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx
open Cert.LibKeepdims

/-- The extended real the kernel's zero pattern denotes, and the one its scale pattern (2^-10) denotes. -/
abbrev zeroK : EReal := Ideal.ofBits .f32 0x00000000#32
abbrev scaleK : EReal := Ideal.ofBits .f32 0x3A800000#32

/-- One pair's term as the kernel computes it: the square of the difference where the labels agree, zero minus it
    where they differ. -/
def kterm (p q : EReal) (la lb : BitVec 32) : EReal :=
  Scalar.select (IntOp.cmpi .eq la lb) ((p - q) * (p - q)) (zeroK - (p - q) * (p - q))

/-- The tile of signed squares, as the body's vector operations build it from the four loaded blocks. -/
def signedSq (v3 : FVec Ideal S1024x1 .f32) (v4 : FVec Ideal S1x1024 .f32) (v10 : IVec S1024x1 32) (v11 : IVec S1x1024 32) :
    FVec Ideal S1024x1024 .f32 :=
  have v5 : FVec Ideal S1x1024 .f32 := shapeCast S1x1024 v4 shapeCasts_S1x1024_S1x1024
  have v6 : FVec Ideal S1024x1024 .f32 := broadcastTo S1024x1024 v3 broadcasts_S1024x1_S1024x1024
  have v7 : FVec Ideal S1024x1024 .f32 := broadcastTo S1024x1024 v5 broadcasts_S1x1024_S1024x1024
  have v8 : FVec Ideal S1024x1024 .f32 := subf v6 v7
  have v9 : FVec Ideal S1024x1024 .f32 := mulf v8 v8
  have v12 : IVec S1x1024 32 := shapeCast S1x1024 v11 shapeCasts_S1x1024_S1x1024
  have v13 : IVec S1024x1024 32 := broadcastTo S1024x1024 v10 broadcasts_S1024x1_S1024x1024
  have v14 : IVec S1024x1024 32 := broadcastTo S1024x1024 v12 broadcasts_S1x1024_S1024x1024
  have v15 : IVec S1024x1024 1 := cmpi .eq v13 v14
  have cst : Ideal .f32 := Scalar.ofBits .f32 0x00000000#32
  have v16 : FVec Ideal S1024x1024 .f32 := broadcast S1024x1024 cst
  have v17 : FVec Ideal S1024x1024 .f32 := subf v16 v9
  select v15 v9 v17

/-- At pair (a, b) the tile holds the pair term of row a of the column block and column b of the row block. -/
theorem signedSq_apply (v3 : FVec Ideal S1024x1 .f32) (v4 : FVec Ideal S1x1024 .f32) (v10 : IVec S1024x1 32)
    (v11 : IVec S1x1024 32) (a b : Fin 1024) :
    signedSq v3 v4 v10 v11 (ix2 a b)
      = kterm (v3 (ix2 a (0 : Fin 1))) (v4 (ix2 (0 : Fin 1) b)) (v10 (ix2 a (0 : Fin 1))) (v11 (ix2 (0 : Fin 1) b)) := by
  have e6 : broadcastTo S1024x1024 v3 broadcasts_S1024x1_S1024x1024 (ix2 a b) = v3 (ix2 a (0 : Fin 1)) :=
    broadcastTo_a1_ac_apply v3 broadcasts_S1024x1_S1024x1024 a b
  have e7 : broadcastTo S1024x1024 (shapeCast S1x1024 v4 shapeCasts_S1x1024_S1x1024) broadcasts_S1x1024_S1024x1024 (ix2 a b)
      = v4 (ix2 (0 : Fin 1) b) := by
    rw [shapeCast_self]; exact broadcastTo_1b_ab_apply v4 broadcasts_S1x1024_S1024x1024 a b
  have e13 : broadcastTo S1024x1024 v10 broadcasts_S1024x1_S1024x1024 (ix2 a b) = v10 (ix2 a (0 : Fin 1)) :=
    broadcastTo_a1_ac_apply v10 broadcasts_S1024x1_S1024x1024 a b
  have e14 : broadcastTo S1024x1024 (shapeCast S1x1024 v11 shapeCasts_S1x1024_S1x1024) broadcasts_S1x1024_S1024x1024 (ix2 a b)
      = v11 (ix2 (0 : Fin 1) b) := by
    rw [shapeCast_self]; exact broadcastTo_1b_ab_apply v11 broadcasts_S1x1024_S1024x1024 a b
  show Scalar.select
      (IntOp.cmpi .eq (broadcastTo S1024x1024 v10 broadcasts_S1024x1_S1024x1024 (ix2 a b))
        (broadcastTo S1024x1024 (shapeCast S1x1024 v11 shapeCasts_S1x1024_S1x1024) broadcasts_S1x1024_S1024x1024 (ix2 a b)))
      ((broadcastTo S1024x1024 v3 broadcasts_S1024x1_S1024x1024 (ix2 a b)
          - broadcastTo S1024x1024 (shapeCast S1x1024 v4 shapeCasts_S1x1024_S1x1024) broadcasts_S1x1024_S1024x1024 (ix2 a b))
        * (broadcastTo S1024x1024 v3 broadcasts_S1024x1_S1024x1024 (ix2 a b)
          - broadcastTo S1024x1024 (shapeCast S1x1024 v4 shapeCasts_S1x1024_S1x1024) broadcasts_S1x1024_S1024x1024 (ix2 a b)))
      (zeroK - (broadcastTo S1024x1024 v3 broadcasts_S1024x1_S1024x1024 (ix2 a b)
          - broadcastTo S1024x1024 (shapeCast S1x1024 v4 shapeCasts_S1x1024_S1x1024) broadcasts_S1x1024_S1024x1024 (ix2 a b))
        * (broadcastTo S1024x1024 v3 broadcasts_S1024x1_S1024x1024 (ix2 a b)
          - broadcastTo S1024x1024 (shapeCast S1x1024 v4 shapeCasts_S1x1024_S1x1024) broadcasts_S1x1024_S1024x1024 (ix2 a b))) = _
  rw [e6, e7, e13, e14]
  rfl

/-- The two reductions and the casts between them: a tile summed along its rows, the row sums kept as a column, the
    column summed, the one number kept as a [1, 1] block. -/
def tileTotal (w : FVec Ideal S1024x1024 .f32) : FVec Ideal S1x1 .f32 :=
  have v19 : FVec Ideal S1024 .f32 := multiReduction .add [1] S1024 w 0x00000000#32 reduces_S1024x1024_S1024 (.inl rfl) rfl
  have v20 : FVec Ideal S1024x1 .f32 := shapeCast S1024x1 v19 shapeCasts_S1024_S1024x1
  have v21 : FVec Ideal S1 .f32 := multiReduction .add [0] S1 v20 0x00000000#32 reduces_S1024x1_S1 (.inl rfl) rfl
  have v22 : FVec Ideal S1x1 .f32 := shapeCast S1x1 v21 shapeCasts_S1_S1x1
  have v24 : FVec Ideal S1x1 .f32 := shapeCast S1x1 v22 shapeCasts_S1x1_S1x1
  v24

/-- Its one entry is the double sum over the tile. -/
theorem tileTotal_apply (w : FVec Ideal S1024x1024 .f32) :
    tileTotal w (ix2 (0 : Fin 1) (0 : Fin 1)) = ∑ a : Fin 1024, ∑ b : Fin 1024, w (ix2 a b) := by
  unfold tileTotal
  dsimp only
  rw [shapeCast_self]
  refine (shapeCast_a_a1_apply _ shapeCasts_S1_S1x1 (0 : Fin 1) (0 : Fin 1)).trans ?_
  refine (Ideal.multiReduction_add_single _ 0x00000000#32 reduces_S1024x1_S1 (.inl rfl) rfl (ix1 (0 : Fin 1))).trans ?_
  refine Finset.sum_congr rfl fun a _ => ?_
  have hl : reduces_S1024x1_S1.lift (ix1 (0 : Fin 1)) a = ix2 (a : Fin 1024) (0 : Fin 1) :=
    funext fun d => Fin.ext (by
      match d with
      | ⟨0, _⟩ => rfl
      | ⟨1, _⟩ => rfl)
  rw [hl]
  refine (shapeCast_a_a1_apply _ shapeCasts_S1024_S1024x1 (a : Fin 1024) (0 : Fin 1)).trans ?_
  exact multiReduction_add_lastAxis_apply w 0x00000000#32 reduces_S1024x1024_S1024 (.inl rfl) rfl a

/-- A [1, 1] block spread over [8, 128] reads its one entry everywhere. -/
theorem spread_apply (v : FVec Ideal S1x1 .f32) (y : S8x128.Idx) :
    broadcastTo S8x128 v broadcasts_S1x1_S8x128 y = v (ix2 (0 : Fin 1) (0 : Fin 1)) := by
  refine broadcastTo_apply v broadcasts_S1x1_S8x128 y (ix2 (0 : Fin 1) (0 : Fin 1)) fun ax => ?_
  match ax with
  | ⟨0, _⟩ => show 0 = if (1 : ℕ) = 1 then 0 else _; rw [if_pos rfl]
  | ⟨1, _⟩ => show 0 = if (1 : ℕ) = 1 then 0 else _; rw [if_pos rfl]

/-- The double sum over a tile of its pair terms: what one grid point contributes before scaling. -/
def tileSum (v3 : FVec Ideal S1024x1 .f32) (v4 : FVec Ideal S1x1024 .f32) (v10 : IVec S1024x1 32) (v11 : IVec S1x1024 32) : EReal :=
  ∑ a : Fin 1024, ∑ b : Fin 1024,
    kterm (v3 (ix2 a (0 : Fin 1))) (v4 (ix2 (0 : Fin 1) b)) (v10 (ix2 a (0 : Fin 1))) (v11 (ix2 (0 : Fin 1) b))

/-- The block the body stores back into the scratch: every entry is the entry the scratch held plus the tile's double
    sum times 2^-10. -/
theorem pay2_apply (v3 : FVec Ideal S1024x1 .f32) (v4 : FVec Ideal S1x1024 .f32) (v10 : IVec S1024x1 32)
    (v11 : IVec S1x1024 32) (v23 : FVec Ideal S8x128 .f32) (y : S8x128.Idx) :
    k0_pay2 (F := Ideal) v3 v4 v10 v11 v23 y = v23 y + tileSum v3 v4 v10 v11 * scaleK := by
  show shapeCast S8x128 (addf v23 (mulf (broadcastTo S8x128 (tileTotal (signedSq v3 v4 v10 v11)) broadcasts_S1x1_S8x128)
      (broadcast S8x128 (Scalar.ofBits (F := Ideal) .f32 0x3A800000#32)))) shapeCasts_S8x128_S8x128 y = _
  rw [shapeCast_self]
  show v23 y + broadcastTo S8x128 (tileTotal (signedSq v3 v4 v10 v11)) broadcasts_S1x1_S8x128 y * scaleK = _
  rw [spread_apply, tileTotal_apply]
  unfold tileSum
  simp only [signedSq_apply]

/-- The block the reset stores: zero everywhere. -/
theorem pay1_apply (y : S8x128.Idx) : k0_pay1 (F := Ideal) y = zeroK := by
  show shapeCast S8x128 (broadcast S8x128 (Scalar.ofBits (F := Ideal) .f32 0x00000000#32)) shapeCasts_S8x128_S8x128 y = _
  rw [shapeCast_self]
  rfl

end Cert.KernelIdeal.Tile

end
-- ==== Proof.KernelValue.lean ====
/-
  The kernel's result, read off its run.

  The run's record of the scratch buffer after each grid point is the running total of PairSum.lean (`scratch_eq`, by
  induction on the point: the first tile of a row block restarts from the zero block, every other tile adds to what the
  point before left), with the point's tile sum taken over the four blocks the point was handed (`T`).  At the last tile
  of a row block the output block holds the same total (`output_eq`), that block is written back to rows 8 i .. 8 i + 7
  of the [64, 128] result array, and the eight written blocks tile the array (`flushed_eq`, `cover`), so the array ends
  holding, at row r, the total of row block r / 8 (`final`).  The host then adds up the array from zero (`tail_eq`,
  `result_apply`).  Finally each tile sum is the double sum of the pair terms over rows 1024 i + a and 1024 j + b of the
  two argument arrays (`T_tile`).
-/
import proofs.«112891_j78451872629246_2_alg».proof.Proof.Blocks
import proofs.«112891_j78451872629246_2_alg».proof.Proof.Pieces
import proofs.«112891_j78451872629246_2_alg».proof.Proof.Tile
import proofs.«112891_j78451872629246_2_alg».proof.Proof.PairSum
import Idealize.ShloMosaic.Lib.Pipeline.Value
import Idealize.ShloMosaic.Lib.StableHlo.Run
import Idealize.ShloMosaic.Lib.Tactic
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.PairSum
open Cert.KernelIdeal.Tile Cert.KernelIdeal.Blocks Cert.KernelIdeal.Pieces

variable (m : (ℓ : Loc nD τ sig) → Buf (Elt Ideal) ℓ) (ρ : Dev nD → PrngReg)

/-- The tile sum at grid point `n`: the double sum of the pair terms over the four blocks the point is handed (zero past
    the grid). -/
def T (c : Dev nD) (n : ℕ) : EReal :=
  if h : n < cfg0.N then tileSum (iblk m c 0 ⟨n, h⟩) (iblk m c 1 ⟨n, h⟩) (iblk m c 2 ⟨n, h⟩) (iblk m c 3 ⟨n, h⟩) else 0

theorem T_eq (c : Dev nD) (t : Fin cfg0.N) : T m c t.val = tileSum (iblk m c 0 t) (iblk m c 1 t) (iblk m c 2 t) (iblk m c 3 t) :=
  dif_pos t.isLt

theorem step_eq (X X' s k : EReal) (h : X = X') : X + s * k = X' + s * k := by rw [h]

/-- What the scratch buffer holds after point `n`: in every entry, the running total. -/
theorem scratch_eq (c : Dev nD) : ∀ (n : ℕ) (h : n < cfg0.N) (y : S8x128.Idx),
    (outsAt0 m c n h).2 y = acc (T m c) zeroK scaleK n := by
  intro n
  induction n with
  | zero =>
    intro h y
    rw [outsAt0_A m c ⟨0, h⟩ (Nat.zero_mod 8) (fun e => absurd e (by decide : ¬(0 % 8 = 7)))]
    dsimp only
    rw [scratch_A]
    refine (pay2_apply (iblk m c 0 ⟨0, h⟩) (iblk m c 1 ⟨0, h⟩) (iblk m c 2 ⟨0, h⟩) (iblk m c 3 ⟨0, h⟩) (k0_pay1 (F := Ideal)) y).trans ?_
    rw [pay1_apply, acc_zero, T_eq m c ⟨0, h⟩]
  | succ n ih =>
    intro h y
    have hN : cfg0.N = 64 := N_0
    by_cases h0 : (n + 1) % 8 = 0
    · have h1 : ¬(n + 1) % 8 = 7 := by omega
      rw [outsAt0_A m c ⟨n + 1, h⟩ h0 h1]
      dsimp only
      rw [scratch_A]
      refine (pay2_apply (iblk m c 0 ⟨n + 1, h⟩) (iblk m c 1 ⟨n + 1, h⟩) (iblk m c 2 ⟨n + 1, h⟩) (iblk m c 3 ⟨n + 1, h⟩) (k0_pay1 (F := Ideal)) y).trans ?_
      rw [pay1_apply, acc_restart (T m c) zeroK scaleK (n + 1) h0, T_eq m c ⟨n + 1, h⟩]
    · by_cases h1 : (n + 1) % 8 = 7
      · rw [outsAt0_C m c ⟨n + 1, h⟩ h0 h1]
        dsimp only
        rw [scratch_C]
        refine (pay2_apply (iblk m c 0 ⟨n + 1, h⟩) (iblk m c 1 ⟨n + 1, h⟩) (iblk m c 2 ⟨n + 1, h⟩) (iblk m c 3 ⟨n + 1, h⟩) _ y).trans ?_
        rw [acc_step (T m c) zeroK scaleK (n + 1) h0, T_eq m c ⟨n + 1, h⟩]
        exact step_eq _ _ _ _ (ih _ y)
      · rw [outsAt0_B m c ⟨n + 1, h⟩ h0 h1]
        dsimp only
        rw [scratch_B]
        refine (pay2_apply (iblk m c 0 ⟨n + 1, h⟩) (iblk m c 1 ⟨n + 1, h⟩) (iblk m c 2 ⟨n + 1, h⟩) (iblk m c 3 ⟨n + 1, h⟩) _ y).trans ?_
        rw [acc_step (T m c) zeroK scaleK (n + 1) h0, T_eq m c ⟨n + 1, h⟩]
        exact step_eq _ _ _ _ (ih _ y)

/-- At the last tile of a row block the output block holds the same running total. -/
theorem output_eq (c : Dev nD) (t : Fin cfg0.N) (h7 : t.val % 8 = 7) (y : S8x128.Idx) :
    (outsAt0 m c t.val t.isLt).1 y = acc (T m c) zeroK scaleK t.val := by
  have h0 : ¬t.val % 8 = 0 := by omega
  rw [outsAt0_C m c t h0 h7]
  dsimp only
  rw [output_C]
  refine (pay2_apply (iblk m c 0 t) (iblk m c 1 t) (iblk m c 2 t) (iblk m c 3 t) _ y).trans ?_
  rw [acc_step (T m c) zeroK scaleK t.val h0, T_eq m c t]
  exact step_eq _ _ _ _ (scratch_eq m c _ _ y)

/-- The result array after the run: row `r` holds, in every lane, the total of row block `r / 8` after its last tile. -/
def G (c : Dev nD) : S64x128.Idx → EReal := fun i => acc (T m c) zeroK scaleK (8 * ((i 0).val / 8) + 7)

/-- What a last-tile point writes back is its block of that array. -/
theorem flushed_eq (c : Dev nD) (t : Fin cfg0.N) (hf : (cfg0.win 4).flush t = true) :
    (dats m 0 c).flushed 4 t = ((cfg0.win 4).blk t).view.read (Elt Ideal) (G m c) := by
  have h7 : t.val % 8 = 7 := (flush0_4 t).mp hf
  obtain ⟨-, -, -, -, -, -, -, -, e40, e41⟩ := idx_facts t
  show (cfg0.win 4).cut (grid0.coords t) ((dats m 0 c).after 4 t) = _
  rw [after0_4]
  funext j
  show (outsAt0 m c t.val t.isLt).1 j = G m c (((cfg0.win 4).blk t).view.emb j)
  rw [output_eq m c t h7 j]
  show acc (T m c) zeroK scaleK t.val
    = acc (T m c) zeroK scaleK (8 * ((win0_4.index t (0 : Fin 2) * 8 + 1 * (j 0).val) / 8) + 7)
  rw [e40]
  have hj : (j 0).val < 8 := (j 0).isLt
  refine congrArg (acc (T m c) zeroK scaleK) ?_
  omega

/-- An index of the array is in point `t`'s block iff each coordinate is in the block's range on its axis. -/
theorem mem_blk (t : Fin cfg0.N) (i : S64x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v2).slice (win0_4.rect t)).set ↔ _
  rw [View.set_slice_whole, Rect.mem_set_unit]
  exact Iff.rfl

/-- Row `r` of the array lies in the block written by the last tile of row block `r / 8`. -/
theorem cover (i : S64x128.Idx) :
    ∃ t : Fin cfg0.N, (cfg0.win 4).flush t = true ∧ i ∈ ((cfg0.win 4).blk t).view.set := by
  have hN : cfg0.N = 64 := N_0
  have hi0 : (i 0).val < 64 := (i 0).isLt
  have hi1 : (i 1).val < 128 := (i 1).isLt
  have hlt : 8 * ((i 0).val / 8) + 7 < cfg0.N := by omega
  obtain ⟨-, -, -, -, -, -, -, -, e40, e41⟩ := idx_facts ⟨8 * ((i 0).val / 8) + 7, hlt⟩
  refine ⟨⟨8 * ((i 0).val / 8) + 7, hlt⟩, (flush0_4 _).mpr (by show (8 * ((i 0).val / 8) + 7) % 8 = 7; omega), ?_⟩
  rw [mem_blk]
  intro a
  match a with
  | ⟨0, _⟩ =>
    show win0_4.index ⟨8 * ((i 0).val / 8) + 7, hlt⟩ (0 : Fin 2) * 8 ≤ (i 0).val
      ∧ (i 0).val < win0_4.index ⟨8 * ((i 0).val / 8) + 7, hlt⟩ (0 : Fin 2) * 8 + 8
    rw [e40]
    show (8 * ((i 0).val / 8) + 7) / 8 * 8 ≤ (i 0).val ∧ (i 0).val < (8 * ((i 0).val / 8) + 7) / 8 * 8 + 8
    omega
  | ⟨1, _⟩ =>
    show win0_4.index ⟨8 * ((i 0).val / 8) + 7, hlt⟩ (1 : Fin 2) * 128 ≤ (i 1).val
      ∧ (i 1).val < win0_4.index ⟨8 * ((i 0).val / 8) + 7, hlt⟩ (1 : Fin 2) * 128 + 128
    rw [e41]
    omega

/-- The result array after the run. -/
theorem final (c : Dev nD) : (dats m 0 c).arrAt 4 cfg0.N = G m c :=
  (dats m 0 c).arrAt_eq_of_cover 4 (G m c) (flushed_eq m c) cover

/-- The host's closing sum, over that array. -/
theorem tail_eq (c : Dev nD) :
    Pipeline.afterTail₀ cfgs (dats m) 0 (V0 m) [hostOps1] c main_v3
      = Host.reduceAdd (F := Ideal) (G m c) (constant (F := Ideal) S_ .f32 0x00000000#32) reducesTo_S64x128_S_d0_1 h_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = G m c :=
    (Pipeline.withArrays_arr spec0 launch0.win.arr_inj c _ _ 4).trans (final m c)
  rw [e]

/-- The closing sum at the ideal values: zero plus the sum of the array over its rows and lanes. -/
theorem result_apply (c : Dev nD) (i : S_.Idx) :
    Host.reduceAdd (F := Ideal) (G m c) (constant (F := Ideal) S_ .f32 0x00000000#32) reducesTo_S64x128_S_d0_1 h_S_ i
      = zeroK + ∑ r : Fin 64, ∑ _l : Fin 128, acc (T m c) zeroK scaleK (8 * (r.val / 8) + 7) := by
  simp only [Host.reduceAdd, Ideal.hostReduceAdd_def]
  refine (Ideal.hostReduceAdd_total reducesTo_S64x128_S_d0_1 (fun b => b.elim0) (G m c) _ i).trans ?_
  rw [sum_idx2]
  rfl

/-- The kernel's program, run: its result is zero plus the sum of the array of spread totals, and its arguments are
    unchanged. -/
theorem run : θ_run defs (onTc (τ := τ) (main (F := Ideal))) ⟨m, fun _ => 0, ρ⟩ fun r => ∀ c : Dev nD,
      r.2.mem ((c : Thread nD τ).loc main_v3)
        = (fun _ => zeroK + ∑ r : Fin 64, ∑ _l : Fin 128, acc (T m c) zeroK scaleK (8 * (r.val / 8) + 7))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 rfl (by decide))).trans
        (funext fun i => (congrFun (tail_eq m c) i).trans (result_apply m c i)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩)
    (run_main m ρ)

/-- The tile sum at point `8 i + j` is the double sum of the pair terms over rows `1024 i + a` and `1024 j + b` of the
    argument arrays. -/
theorem T_tile (c : Dev nD) (i j : Fin 8) :
    T m c (8 * i.val + j.val) = ∑ a : Fin 1024, ∑ b : Fin 1024,
      kterm (m ((c : Thread nD τ).loc main_arg0) (ix2 (row i a) (0 : Fin 1)))
        (m ((c : Thread nD τ).loc main_arg0) (ix2 (row j b) (0 : Fin 1)))
        (m ((c : Thread nD τ).loc main_arg1) (ix2 (row i a) (0 : Fin 1)))
        (m ((c : Thread nD τ).loc main_arg1) (ix2 (row j b) (0 : Fin 1))) := by
  have hN : cfg0.N = 64 := N_0
  have hi := i.isLt
  have hj := j.isLt
  have hlt : 8 * i.val + j.val < cfg0.N := by omega
  have hpi : pi ⟨8 * i.val + j.val, hlt⟩ = i := Fin.ext (by show (8 * i.val + j.val) / 8 = i.val; omega)
  have hpj : pj ⟨8 * i.val + j.val, hlt⟩ = j := Fin.ext (by show (8 * i.val + j.val) % 8 = j.val; omega)
  refine (T_eq m c ⟨8 * i.val + j.val, hlt⟩).trans ?_
  unfold tileSum
  refine Finset.sum_congr rfl fun a _ => Finset.sum_congr rfl fun b _ => ?_
  rw [col_pred m c ⟨8 * i.val + j.val, hlt⟩ a, row_pred m c ⟨8 * i.val + j.val, hlt⟩ b,
    col_label m c ⟨8 * i.val + j.val, hlt⟩ a, row_label m c ⟨8 * i.val + j.val, hlt⟩ b, hpi, hpj]

end Cert.KernelIdeal.KValue

end
-- ==== Proof.RefValue.lean ====
/-
  What the reference computes, read pair by pair.

  The reference forms the full 8192 x 8192 matrix: entry (u, v) is the sign of the pair (+1 where the labels of rows
  u and v agree, -1 where they differ) times the square of the difference of their predictions, replaced by zero on the
  diagonal (`rterm`, `entry_apply`); the result is zero plus the sum of all entries (`ref_total`).
-/
import proofs.«112891_j78451872629246_2_alg».proof.Proof.Gen.ReferenceIdeal.Read
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- One entry of the reference's matrix: off the diagonal the sign of the pair times the squared difference, on the
    diagonal zero.  `p`, `q` are the two predictions, `la`, `lb` the two labels, `u`, `v` the two row numbers. -/
def rterm (p q : EReal) (la lb : BitVec 32) (u v : Fin 8192) : EReal :=
  Scalar.select (~~~(IntOp.cmpi .eq (IntOp.addi (BitVec.ofNat 32 u.val) 0#32) (BitVec.ofNat 32 v.val)))
    (Scalar.select (IntOp.cmpi .eq la lb) (Ideal.ofBits .f32 0x3F800000#32) (Ideal.ofBits .f32 0xBF800000#32)
      * ((p - q) * (p - q)))
    (Ideal.ofBits .f32 0x00000000#32)

/-- The masked signed square at (u, v), from the two argument arrays. -/
theorem entry_apply (x0 : (⟨S8192x1, .f32⟩ : BufTy).Contents (Elt Ideal)) (x1 : (⟨S8192x1, .i32⟩ : BufTy).Contents (Elt Ideal))
    (u v : Fin 8192) :
    val_main_v22 (F := Ideal) x0 x1 (ix2 u v)
      = rterm (x0 (ix2 u (0 : Fin 1))) (x0 (ix2 v (0 : Fin 1))) (x1 (ix2 u (0 : Fin 1))) (x1 (ix2 v (0 : Fin 1))) u v := by
  have h0u : idx_main_v0 (idx_main_v1 (idx_main_v3 (ix2 u v))) = ix2 u (0 : Fin 1) :=
    funext fun a => by
      match a with
      | ⟨0, _⟩ => exact Fin.ext (Nat.div_one _)
      | ⟨1, _⟩ => rfl
  have h0v : idx_main_v0 (idx_main_v2 (idx_main_v4 (ix2 u v))) = ix2 v (0 : Fin 1) :=
    funext fun a => by
      match a with
      | ⟨0, _⟩ => exact Fin.ext (Nat.div_one _)
      | ⟨1, _⟩ => rfl
  have h7u : idx_main_v7 (idx_main_v8 (idx_main_v10 (ix2 u v))) = ix2 u (0 : Fin 1) :=
    funext fun a => by
      match a with
      | ⟨0, _⟩ => exact Fin.ext (Nat.div_one _)
      | ⟨1, _⟩ => rfl
  have h7v : idx_main_v7 (idx_main_v9 (idx_main_v11 (ix2 u v))) = ix2 v (0 : Fin 1) :=
    funext fun a => by
      match a with
      | ⟨0, _⟩ => exact Fin.ext (Nat.div_one _)
      | ⟨1, _⟩ => rfl
  simp only [val_main_v22_apply, val_main_v20_apply, val_main_v19_apply, val_main_v18_apply, val_main_v15_apply,
    val_main_v17_apply, val_main_c_apply, val_main_v16_apply, val_main_v21_apply, val_main_v14_apply, val_main_v13_apply,
    val_main_v12_apply, val_main_v10_apply, val_main_v8_apply, val_main_v7_apply, val_main_v11_apply, val_main_v9_apply,
    val_main_call0_v0_apply, val_main_cst_apply, val_main_call0_v1_apply, val_main_cst_0_apply, val_main_v6_apply,
    val_main_v5_apply, val_main_v3_apply, val_main_v1_apply, val_main_v0_apply, val_main_v4_apply, val_main_v2_apply,
    val_main_call1_v1_apply, val_main_call1_v0_apply, val_main_cst_1_apply, h0u, h0v, h7u, h7v]
  rfl

/-- The reference's result: zero plus the sum of the entries over all ordered pairs of rows. -/
theorem ref_total (x0 : (⟨S8192x1, .f32⟩ : BufTy).Contents (Elt Ideal)) (x1 : (⟨S8192x1, .i32⟩ : BufTy).Contents (Elt Ideal))
    (i : S_.Idx) :
    val_main_v23 (F := Ideal) x0 x1 i
      = Ideal.ofBits .f32 0x00000000#32 + ∑ u : Fin 8192, ∑ v : Fin 8192,
          rterm (x0 (ix2 u (0 : Fin 1))) (x0 (ix2 v (0 : Fin 1))) (x1 (ix2 u (0 : Fin 1))) (x1 (ix2 v (0 : Fin 1))) u v := by
  rw [val_main_v23_apply, sum_idx2]
  simp only [entry_apply]
  rfl

end Cert.ReferenceIdeal.RefValue

end
-- ==== Proof.Consts.lean ====
/-
  The float constants the two programs spell, as the extended reals their bit patterns denote: zero, one, minus one,
  two to the minus ten (the kernel's 1/1024) and plus infinity (the bound the precondition compares |x| against).
  They are evaluated here once, so that no other module opens the pattern decoder.
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = 1 := by
  simp [Ideal.ofBits, Ideal.ieee, -EReal.coe_mul]; norm_num

/-- The pattern of -1.0 denotes -1. -/
theorem ofBits_neg_one : Ideal.ofBits .f32 0xBF800000#32 = -1 := by
  simp [Ideal.ofBits, Ideal.ieee, -EReal.coe_mul]; norm_num

/-- The pattern of 9.765625e-4 denotes exactly 1/1024. -/
theorem ofBits_inv1024 : Ideal.ofBits .f32 0x3A800000#32 = ((1 / 1024 : ℝ) : EReal) := by
  simp [Ideal.ofBits, Ideal.ieee, -EReal.coe_mul]; norm_num

/-- The pattern of +inf denotes the top element. -/
theorem ofBits_inf : Ideal.ofBits .f32 0x7F800000#32 = ⊤ := by
  simp [Ideal.ofBits, Ideal.ieee]

/-- 1/1024 is non-negative, and 1024 copies of it add up to 1. -/
theorem inv1024_nonneg : (0 : EReal) ≤ ((1 / 1024 : ℝ) : EReal) := by
  exact_mod_cast (by norm_num : (0 : ℝ) ≤ 1 / 1024)

theorem inv1024_nsmul : (1024 : ℕ) • ((1 / 1024 : ℝ) : EReal) = 1 := by
  rw [← EReal.coe_nsmul]
  exact_mod_cast (by norm_num : (1024 : ℕ) • (1 / 1024 : ℝ) = 1)

end Cert.Consts

end
-- ==== Proof.Bridge.lean ====
/-
  The two programs' pair terms are one number, for finite predictions.

  The kernel's term selects between the squared difference and zero minus it on whether the labels agree; the
  reference's term multiplies the squared difference by +1 or -1 on the same test and replaces the diagonal by zero,
  the diagonal being recognised by comparing the row numbers as 32-bit words (`diag_bit`: row numbers below 8192 are
  equal as words exactly when they are equal).  With the constants' values (zero, one, minus one) this is the pair
  identity of PairSum.lean; on the diagonal it needs the prediction to be finite.
-/
import proofs.«112891_j78451872629246_2_alg».proof.Proof.Tile
import proofs.«112891_j78451872629246_2_alg».proof.Proof.RefValue
import proofs.«112891_j78451872629246_2_alg».proof.Proof.PairSum
import proofs.«112891_j78451872629246_2_alg».proof.Proof.Consts

noncomputable section

namespace Cert.Bridge

open Idealize.ShloMosaic Cert.KernelIdeal.Tile Cert.ReferenceIdeal.RefValue

/-- A word compares equal to itself. -/
theorem cmpi_self (x : BitVec 32) : IntOp.cmpi .eq x x = 1#1 := by
  unfold IntOp.cmpi
  simp

/-- The reference's off-diagonal bit at (u, v) is set exactly when u and v differ. -/
theorem diag_bit (u v : Fin 8192) :
    (~~~(IntOp.cmpi .eq (IntOp.addi (BitVec.ofNat 32 u.val) 0#32) (BitVec.ofNat 32 v.val)) = 1) ↔ ¬u = v := by
  have hu := u.isLt
  have hv := v.isLt
  have key : (BitVec.ofNat 32 u.val = BitVec.ofNat 32 v.val) ↔ u = v := by
    constructor
    · intro h
      have h' := congrArg BitVec.toNat h
      simp only [BitVec.toNat_ofNat] at h'
      rw [Nat.mod_eq_of_lt (by omega), Nat.mod_eq_of_lt (by omega)] at h'
      exact Fin.ext h'
    · rintro rfl; rfl
  unfold IntOp.cmpi IntOp.addi
  rw [BitVec.add_zero]
  by_cases h : u = v
  · subst h; simp
  · have hne : ¬(BitVec.ofNat 32 u.val = BitVec.ofNat 32 v.val) := fun e => h (key.mp e)
    have hb : (BitVec.ofNat 32 u.val == BitVec.ofNat 32 v.val) = false := beq_eq_false_iff_ne.mpr hne
    simp [hb, h]

/-- The kernel's pair term is the reference's, when a row's prediction is finite. -/
theorem term_bridge (p q : EReal) (la lb : BitVec 32) (u v : Fin 8192)
    (hd : u = v → la = lb ∧ p = q ∧ p ≠ ⊤ ∧ p ≠ ⊥) :
    kterm p q la lb = rterm p q la lb u v := by
  unfold kterm rterm Scalar.select
  rw [if_congr (diag_bit u v) rfl rfl]
  exact Cert.PairSum.term_eq p q _ _ _ Cert.Consts.ofBits_zero Cert.Consts.ofBits_one Cert.Consts.ofBits_neg_one
    (IntOp.cmpi .eq la lb = 1) (u = v) (fun h => by
      obtain ⟨hl, hpq, ht, hb⟩ := hd h
      subst hl
      exact ⟨cmpi_self la, hpq, ht, hb⟩)

end Cert.Bridge

end
-- ==== Proof.Finite.lean ====
/-
  The precondition, read entry by entry: every prediction is a finite number.

  The precondition is the conjunction over all 8192 entries of |x| < +inf.  On the extended reals |x| is max x (-x),
  and max x (-x) < top says exactly that x is neither top nor bottom.
-/
import proofs.«112891_j78451872629246_2_alg».proof.Pre_finite_inputs
import proofs.«112891_j78451872629246_2_alg».proof.Proof.Gen.Pre_finite_inputs
import proofs.«112891_j78451872629246_2_alg».proof.Proof.Consts
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The rank-0 result has one index. -/
instance : Subsingleton Cert.Pre_finite_inputs.S_.Idx := ⟨fun _ _ => funext fun d => d.elim0⟩

/-- An extended real whose absolute value is below top is finite. -/
theorem finite_of_abs_lt_top (x : EReal) (h : max x (-x) < ⊤) : x ≠ ⊤ ∧ x ≠ ⊥ := by
  constructor
  · rintro rfl; simp at h
  · rintro rfl; simp at h

/-- Under the precondition every entry of the prediction array is finite. -/
theorem finite_of_pre (x0 : FVec Ideal Cert.Pre_finite_inputs.S8192x1 .f32) (x1 : IVec Cert.Pre_finite_inputs.S8192x1 32)
    (h : Cert.Pre_finite_inputs.fn (F := Ideal) x0 x1 = fun _ => 1#1) (i : Cert.Pre_finite_inputs.S8192x1.Idx) :
    x0 i ≠ ⊤ ∧ x0 i ≠ ⊥ := by
  have h0 := congrFun h ix0
  dsimp only [Cert.Pre_finite_inputs.fn] at h0
  have hi := Host.reduce_andi_all _ _ _ _ ix0 h0 i
  have hcmp : Ideal.cmp .olt (max (x0 i) (-(x0 i))) (Ideal.ofBits .f32 0x7F800000#32) = 1#1 := hi
  rw [Cert.Consts.ofBits_inf] at hcmp
  refine finite_of_abs_lt_top (x0 i) ?_
  by_contra hne
  have hf : decide (max (x0 i) (-(x0 i)) < (⊤ : EReal)) = false := decide_eq_false hne
  have h0' : Ideal.cmp .olt (max (x0 i) (-(x0 i))) ⊤ = 0#1 := by
    show BitVec.ofBool (decide (max (x0 i) (-(x0 i)) < (⊤ : EReal))) = 0#1
    rw [hf]; rfl
  rw [h0'] at hcmp
  exact absurd hcmp (by decide)

end Cert.Finite

end
-- ==== Proof.lean ====
/-
  The kernel and its reference compute one number from finite predictions.

  Both programs take 8192 predictions p and 8192 labels and return a signed sum of squared differences over all
  ordered pairs of rows: +(p u - p v)^2 when rows u and v carry the same label, -(p u - p v)^2 otherwise.

  The reference builds the whole 8192 x 8192 matrix of sign times square, zeroes its diagonal, and sums it
  (RefValue.lean).  The kernel walks an 8 x 8 grid of 1024 x 1024 tiles; at tile (i, j) it sums the tile's signed squares
  (the square where the labels agree, zero minus the square where they differ; no diagonal mask), multiplies the sum by
  1/1024 and adds it to a running [8, 128] block that restarts at j = 0; after j = 7 the block is written to rows
  8 i .. 8 i + 7 of a [64, 128] array, which the host finally sums (Tile.lean, Pieces.lean, Blocks.lean,
  KernelValue.lean).  Each of the 1024 entries of block i holds (sum over j of tile sums) / 1024, so the array's total is
  the sum of all tile sums: 1/1024 is non-negative, and 1024 copies of X * (1/1024) add up to X for every extended
  real X (PairSum.lean).  The pair terms of the two programs agree off the diagonal identically, and on the diagonal
  because p u - p u = 0 for a finite p u, which the precondition provides (Bridge.lean, Finite.lean).

  The ideal pass rewrote nothing, so the idealized kernel is the kernel's own text; the two frames of the kernel are the
  generated ones, and the reference's frame is its run with the result dropped.
-/
import proofs.«112891_j78451872629246_2_alg».proof.Defs
import proofs.«112891_j78451872629246_2_alg».proof.Proof.Gen.Kernel
import proofs.«112891_j78451872629246_2_alg».proof.Proof.Gen.Kernel.Skeleton
import proofs.«112891_j78451872629246_2_alg».proof.Proof.Gen.Kernel.Launch
import proofs.«112891_j78451872629246_2_alg».proof.Proof.Gen.Kernel.Points
import proofs.«112891_j78451872629246_2_alg».proof.Proof.Gen.Kernel.Frame
import proofs.«112891_j78451872629246_2_alg».proof.Proof.Gen.KernelIdeal
import proofs.«112891_j78451872629246_2_alg».proof.Proof.Gen.KernelIdeal.Skeleton
import proofs.«112891_j78451872629246_2_alg».proof.Proof.Gen.KernelIdeal.Launch
import proofs.«112891_j78451872629246_2_alg».proof.Proof.Gen.KernelIdeal.Points
import proofs.«112891_j78451872629246_2_alg».proof.Proof.Gen.KernelIdeal.Frame
import proofs.«112891_j78451872629246_2_alg».proof.Proof.Gen.ReferenceIdeal
import proofs.«112891_j78451872629246_2_alg».proof.Proof.Gen.Pre_finite_inputs
import proofs.«112891_j78451872629246_2_alg».proof.Proof.Gen.ReferenceIdeal.Run
import proofs.«112891_j78451872629246_2_alg».proof.Proof.Gen.ReferenceIdeal.Read
import proofs.«112891_j78451872629246_2_alg».proof.Proof.KernelValue
import proofs.«112891_j78451872629246_2_alg».proof.Proof.RefValue
import proofs.«112891_j78451872629246_2_alg».proof.Proof.Bridge
import proofs.«112891_j78451872629246_2_alg».proof.Proof.Finite
import proofs.«112891_j78451872629246_2_alg».proof.Proof.Consts
import Idealize.ShloMosaic.Adequacy
import Idealize.ShloMosaic.Init

noncomputable section

open scoped BigOperators

namespace Cert.Proof

open Idealize.ShloMosaic Idealize.ShloMosaic.TcCoe Idealize.SL.Sem Idealize.ShloMosaic.ValueIdx
open Cert.KernelIdeal.Tile Cert.KernelIdeal.KValue Cert.PairSum

/-- With finite predictions the reference's result is the kernel's: zero plus the sum over all ordered pairs of the pair
    term, which the kernel reaches as the total of its array of spread row-block totals. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Cert.ReferenceIdeal.Read.val_main_v23 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      = fun _ => zeroK + ∑ r : Fin 64, ∑ _l : Fin 128, acc (T m c) zeroK scaleK (8 * (r.val / 8) + 7) := by
  funext i
  rw [Cert.ReferenceIdeal.RefValue.ref_total]
  have hfin := fun u : Fin 8192 => Cert.Finite.finite_of_pre _ _ hpre (ix2 u (0 : Fin 1))
  refine congrArg (fun z : EReal => zeroK + z) ?_
  rw [show zeroK = 0 from Cert.Consts.ofBits_zero, show scaleK = ((1 / 1024 : ℝ) : EReal) from Cert.Consts.ofBits_inv1024]
  symm
  refine (spread_total (T m c) _ Cert.Consts.inv1024_nonneg Cert.Consts.inv1024_nsmul
    (fun u v => kterm
      (m ((c.tc : Thread Cert.KernelIdeal.nD Cert.KernelIdeal.τ).loc Cert.KernelIdeal.main_arg0) (ix2 u (0 : Fin 1)))
      (m ((c.tc : Thread Cert.KernelIdeal.nD Cert.KernelIdeal.τ).loc Cert.KernelIdeal.main_arg0) (ix2 v (0 : Fin 1)))
      (m ((c.tc : Thread Cert.KernelIdeal.nD Cert.KernelIdeal.τ).loc Cert.KernelIdeal.main_arg1) (ix2 u (0 : Fin 1)))
      (m ((c.tc : Thread Cert.KernelIdeal.nD Cert.KernelIdeal.τ).loc Cert.KernelIdeal.main_arg1) (ix2 v (0 : Fin 1))))
    (T_tile m c)).trans ?_
  refine Finset.sum_congr rfl fun u _ => Finset.sum_congr rfl fun v _ => ?_
  exact Cert.Bridge.term_bridge _ _ _ _ u v (fun h => by subst h; exact ⟨rfl, rfl, hfin u⟩)

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both idealized programs run, and the reference's result is the kernel's. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq (F := Ideal) _ _).trans ?_
  rw [(hagree c).1, (hagree c).2]
  exact result_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
